-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32x512 : Shape := ⟨3, ![512, 32, 512]⟩
abbrev S512x32 : Shape := ⟨2, ![512, 32]⟩
abbrev S528x1024 : Shape := ⟨2, ![528, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S_ : Shape := ⟨0, ![]⟩

class Facts : Prop where
  bcast_S_S512x32x512 : S_.BroadcastsInDim S512x32x512 (![] : Fin 0 → Fin S512x32x512.rank)
  reducesTo_S512x32x512_S_d0_1_2 : S512x32x512.ReducesTo [0, 1, 2] S_
  h_S_ : 0 < S_.numel
  bcast_S_S528x1024 : S_.BroadcastsInDim S528x1024 (![] : Fin 0 → Fin S528x1024.rank)
  reducesTo_S528x1024_S_d0_1 : S528x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S1024 .f32) (main_arg6 : FVec F S1024x512 .f32) (main_arg7 : FVec F S512 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S512x32x512 .f32) (main_arg1 : IVec S512x32 32) (main_arg2 : FVec F S528x1024 .f32) (main_arg3 : FVec F S1024 .f32) (main_arg4 : FVec F S1024x1024 .f32) (main_arg5 : FVec F S1024 .f32) (main_arg6 : FVec F S1024x512 .f32) (main_arg7 : FVec F S512 .f32) : IVec S_ 1 :=
  let main_v0 : FVec F S512x32x512 .f32 := Host.absf main_arg0
  let main_cst : FVec F S_ .f32 := constant S_ .f32 0x7F800000#32
  let main_v1 : FVec F S512x32x512 .f32 := broadcastInDim S512x32x512 ![] bcast_S_S512x32x512 main_cst
  let main_v2 : IVec S512x32x512 1 := cmpf .olt main_v0 main_v1
  let main_c : IVec S_ 1 := constantI S_ 1 1#1
  let main_v3 : IVec S_ 1 := (fun x v => Host.reduce IntOp.andi x v reducesTo_S512x32x512_S_d0_1_2 h_S_) main_v2 main_c
  let main_v4 : FVec F S528x1024 .f32 := Host.absf main_arg2
  let main_cst_0 : FVec F S_ .f32 := constant S_ .f32 0x7F800000#32
  let main_v5 : FVec F S528x1024 .f32 := broadcastInDim S528x1024 ![] bcast_S_S528x1024 main_cst_0
  let main_v6 : IVec S528x1024 1 := cmpf .olt main_v4 main_v5
  let main_c_1 : IVec S_ 1 := constantI S_ 1 1#1
  let main_v7 : IVec S_ 1 := (fun x v => Host.reduce IntOp.andi x v reducesTo_S528x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S512x32x512 : Shape := ⟨3, ![512, 32, 512]⟩
abbrev S512x32 : Shape := ⟨2, ![512, 32]⟩
abbrev S528x1024 : Shape := ⟨2, ![528, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x32x1 : Shape := ⟨3, ![512, 32, 1]⟩
abbrev S1x1x16 : Shape := ⟨3, ![1, 1, 16]⟩
abbrev S512x32x16 : Shape := ⟨3, ![512, 32, 16]⟩
abbrev S512x1024 : Shape := ⟨2, ![512, 1024]⟩
abbrev S16x1024 : Shape := ⟨2, ![16, 1024]⟩
abbrev S1x1024 : Shape := ⟨2, ![1, 1024]⟩
abbrev S1x512 : Shape := ⟨2, ![1, 512]⟩
abbrev S16384x512 : Shape := ⟨2, ![16384, 512]⟩
abbrev S16384x16 : Shape := ⟨2, ![16384, 16]⟩
abbrev S1024x16 : Shape := ⟨2, ![1024, 16]⟩

abbrev nBuf : Space → Nat
  | .hbm => 27
  | .vmem => 13
  | .smem => 0
  | _ => 0

abbrev bufTy : (tb : Table) → Fin (tcTables nBuf tb) → BufTy
  | .hbm, ⟨0, _⟩ => ⟨S512x32x512, .f32⟩
  | .hbm, ⟨1, _⟩ => ⟨S512x32, .i32⟩
  | .hbm, ⟨2, _⟩ => ⟨S528x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x32x1, .i32⟩
  | .hbm, ⟨9, _⟩ => ⟨S1x1x16, .i32⟩
  | .hbm, ⟨10, _⟩ => ⟨S512x32x16, .i32⟩
  | .hbm, ⟨11, _⟩ => ⟨S512x32x16, .i32⟩
  | .hbm, ⟨12, _⟩ => ⟨S512x32x16, .i1⟩
  | .hbm, ⟨13, _⟩ => ⟨S512x32x16, .bf16⟩
  | .hbm, ⟨14, _⟩ => ⟨S512x1024, .f32⟩
  | .hbm, ⟨15, _⟩ => ⟨S512x1024, .bf16⟩
  | .hbm, ⟨16, _⟩ => ⟨S16x1024, .f32⟩
  | .hbm, ⟨17, _⟩ => ⟨S16x1024, .bf16⟩
  | .hbm, ⟨18, _⟩ => ⟨S1024x1024, .bf16⟩
  | .hbm, ⟨19, _⟩ => ⟨S1024x512, .bf16⟩
  | .hbm, ⟨20, _⟩ => ⟨S1x1024, .f32⟩
  | .hbm, ⟨21, _⟩ => ⟨S1x1024, .f32⟩
  | .hbm, ⟨22, _⟩ => ⟨S1x512, .f32⟩
  | .hbm, ⟨23, _⟩ => ⟨S16384x512, .f32⟩
  | .hbm, ⟨24, _⟩ => ⟨S16384x16, .bf16⟩
  | .hbm, ⟨25, _⟩ => ⟨S16384x512, .f32⟩
  | .hbm, ⟨26, _⟩ => ⟨S512x32x512, .f32⟩
  | .local _ .vmem, ⟨0, _⟩ => ⟨S1024x512, .f32⟩
  | .local _ .vmem, ⟨1, _⟩ => ⟨S1024x512, .f32⟩
  | .local _ .vmem, ⟨2, _⟩ => ⟨S1024x16, .bf16⟩
  | .local _ .vmem, ⟨3, _⟩ => ⟨S1024x16, .bf16⟩
  | .local _ .vmem, ⟨4, _⟩ => ⟨S512x1024, .bf16⟩
  | .local _ .vmem, ⟨5, _⟩ => ⟨S16x1024, .bf16⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x512, .bf16⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | _, _ => ⟨S512x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S512x32_S512x32x1_0_1 : S512x32.BroadcastsInDim S512x32x1 (![0, 1] : Fin 2 → Fin S512x32x1.rank)
  bcast_S512x32x1_S512x32x16_0_1_2 : S512x32x1.BroadcastsInDim S512x32x16 (![0, 1, 2] : Fin 3 → Fin S512x32x16.rank)
  bcast_S1x1x16_S512x32x16_0_1_2 : S1x1x16.BroadcastsInDim S512x32x16 (![0, 1, 2] : Fin 3 → Fin S512x32x16.rank)
  slices_S528x1024_S512x1024_0_0 : S528x1024.Slices ![0, 0] S512x1024
  bitsLt_bf16_f32 : FTy.bits .bf16 < FTy.bits .f32
  slices_S528x1024_S16x1024_512_0 : S528x1024.Slices ![512, 0] S16x1024
  shapeCasts_S1024_S1x1024 : S1024.ShapeCasts S1x1024
  shapeCasts_S512_S1x512 : S512.ShapeCasts S1x512
  shapeCasts_S512x32x512_S16384x512 : S512x32x512.ShapeCasts S16384x512
  shapeCasts_S512x32x16_S16384x16 : S512x32x16.ShapeCasts S16384x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S16384x512_S512x32x512 : S16384x512.ShapeCasts S512x32x512
  dot_S1024x512_S512x1024_S1024x1024_1_0_0_1_n_n_wf : DotDims.WF S1024x512 S512x1024 S1024x1024 [1] [0] [0] [1] [] []
  dot_S1024x16_S16x1024_S1024x1024_1_0_0_1_n_n_wf : DotDims.WF S1024x16 S16x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S16384x16.size a
  hwx0_1 : ∀ i : grid0.Coords, EltTy.bits .bf16 = 32 ∨ (Rect.block (s := S16384x16) S1024x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .bf16 = 32 ∨ (Rect.block (s := S16x1024) S16x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S16384x512.size a
  hwx0_9 : ∀ i : grid0.Coords, EltTy.bits .f32 = 32 ∨ (Rect.block (s := S16384x512) S1024x512.size (cc0_transform_9 i) (hinb0_9 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S512x32x512 : Shape := ⟨3, ![512, 32, 512]⟩
abbrev S512x32 : Shape := ⟨2, ![512, 32]⟩
abbrev S528x1024 : Shape := ⟨2, ![528, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x32x1 : Shape := ⟨3, ![512, 32, 1]⟩
abbrev S1x1x16 : Shape := ⟨3, ![1, 1, 16]⟩
abbrev S512x32x16 : Shape := ⟨3, ![512, 32, 16]⟩
abbrev S512x1024 : Shape := ⟨2, ![512, 1024]⟩
abbrev S_ : Shape := ⟨0, ![]⟩
abbrev S16x1024 : Shape := ⟨2, ![16, 1024]⟩
abbrev S1x1024 : Shape := ⟨2, ![1, 1024]⟩
abbrev S1x512 : Shape := ⟨2, ![1, 512]⟩
abbrev S16384x512 : Shape := ⟨2, ![16384, 512]⟩
abbrev S16384x16 : Shape := ⟨2, ![16384, 16]⟩
abbrev S2048x512 : Shape := ⟨2, ![2048, 512]⟩
abbrev S2048x16 : Shape := ⟨2, ![2048, 16]⟩
abbrev S2048x1024 : Shape := ⟨2, ![2048, 1024]⟩

abbrev nBuf : Space → Nat
  | .hbm => 46
  | .vmem => 13
  | .smem => 0
  | _ => 0

abbrev bufTy : (tb : Table) → Fin (tcTables nBuf tb) → BufTy
  | .hbm, ⟨0, _⟩ => ⟨S512x32x512, .f32⟩
  | .hbm, ⟨1, _⟩ => ⟨S512x32, .i32⟩
  | .hbm, ⟨2, _⟩ => ⟨S528x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x32x1, .i32⟩
  | .hbm, ⟨9, _⟩ => ⟨S1x1x16, .i32⟩
  | .hbm, ⟨10, _⟩ => ⟨S512x32x16, .i32⟩
  | .hbm, ⟨11, _⟩ => ⟨S512x32x16, .i32⟩
  | .hbm, ⟨12, _⟩ => ⟨S512x32x16, .i1⟩
  | .hbm, ⟨13, _⟩ => ⟨S512x32x16, .bf16⟩
  | .hbm, ⟨14, _⟩ => ⟨S512x32x512, .bf16⟩
  | .hbm, ⟨15, _⟩ => ⟨S512x1024, .f32⟩
  | .hbm, ⟨16, _⟩ => ⟨S_, .i32⟩
  | .hbm, ⟨17, _⟩ => ⟨S_, .f32⟩
  | .hbm, ⟨18, _⟩ => ⟨S512x1024, .f32⟩
  | .hbm, ⟨19, _⟩ => ⟨S512x1024, .bf16⟩
  | .hbm, ⟨20, _⟩ => ⟨S16x1024, .f32⟩
  | .hbm, ⟨21, _⟩ => ⟨S_, .i32⟩
  | .hbm, ⟨22, _⟩ => ⟨S_, .f32⟩
  | .hbm, ⟨23, _⟩ => ⟨S16x1024, .f32⟩
  | .hbm, ⟨24, _⟩ => ⟨S16x1024, .bf16⟩
  | .hbm, ⟨25, _⟩ => ⟨S_, .i32⟩
  | .hbm, ⟨26, _⟩ => ⟨S_, .f32⟩
  | .hbm, ⟨27, _⟩ => ⟨S1024x1024, .f32⟩
  | .hbm, ⟨28, _⟩ => ⟨S1024x1024, .bf16⟩
  | .hbm, ⟨29, _⟩ => ⟨S_, .i32⟩
  | .hbm, ⟨30, _⟩ => ⟨S_, .f32⟩
  | .hbm, ⟨31, _⟩ => ⟨S1024x512, .f32⟩
  | .hbm, ⟨32, _⟩ => ⟨S1024x512, .bf16⟩
  | .hbm, ⟨33, _⟩ => ⟨S_, .i32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S_, .i32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S1x512, .f32⟩
  | .hbm, ⟨42, _⟩ => ⟨S16384x512, .bf16⟩
  | .hbm, ⟨43, _⟩ => ⟨S16384x16, .bf16⟩
  | .hbm, ⟨44, _⟩ => ⟨S16384x512, .f32⟩
  | .hbm, ⟨45, _⟩ => ⟨S512x32x512, .f32⟩
  | .local _ .vmem, ⟨0, _⟩ => ⟨S2048x512, .bf16⟩
  | .local _ .vmem, ⟨1, _⟩ => ⟨S2048x512, .bf16⟩
  | .local _ .vmem, ⟨2, _⟩ => ⟨S2048x16, .bf16⟩
  | .local _ .vmem, ⟨3, _⟩ => ⟨S2048x16, .bf16⟩
  | .local _ .vmem, ⟨4, _⟩ => ⟨S512x1024, .bf16⟩
  | .local _ .vmem, ⟨5, _⟩ => ⟨S16x1024, .bf16⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x512, .bf16⟩
  | .local _ .vmem, ⟨10, _⟩ => ⟨S1x512, .f32⟩
  | .local _ .vmem, ⟨11, _⟩ => ⟨S2048x512, .f32⟩
  | .local _ .vmem, ⟨12, _⟩ => ⟨S2048x512, .f32⟩
  | _, _ => ⟨S512x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_call2_v0 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_call3_v0 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_call4_v0 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_call5_v0 : Ref sig .tc := ⟨.hbm, 34, rfl⟩
abbrev main_v12 : Ref sig .tc := ⟨.hbm, 35, rfl⟩
abbrev main_v13 : Ref sig .tc := ⟨.hbm, 36, rfl⟩
abbrev main_c_4 : Ref sig .tc := ⟨.hbm, 37, rfl⟩
abbrev main_call6_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S512x32_S512x32x1_0_1 : S512x32.BroadcastsInDim S512x32x1 (![0, 1] : Fin 2 → Fin S512x32x1.rank)
  bcast_S512x32x1_S512x32x16_0_1_2 : S512x32x1.BroadcastsInDim S512x32x16 (![0, 1, 2] : Fin 3 → Fin S512x32x16.rank)
  bcast_S1x1x16_S512x32x16_0_1_2 : S1x1x16.BroadcastsInDim S512x32x16 (![0, 1, 2] : Fin 3 → Fin S512x32x16.rank)
  bitsLt_bf16_f32 : FTy.bits .bf16 < FTy.bits .f32
  slices_S528x1024_S512x1024_0_0 : S528x1024.Slices ![0, 0] S512x1024
  pads_S512x1024_S512x1024_000_000 : S512x1024.Pads (![0, 0] : Fin 2 → Nat) ![0, 0] ![0, 0] S512x1024
  h_S_ : 0 < S_.numel
  slices_S528x1024_S16x1024_512_0 : S528x1024.Slices ![512, 0] S16x1024
  pads_S16x1024_S16x1024_000_000 : S16x1024.Pads (![0, 0] : Fin 2 → Nat) ![0, 0] ![0, 0] S16x1024
  pads_S1024x1024_S1024x1024_000_000 : S1024x1024.Pads (![0, 0] : Fin 2 → Nat) ![0, 0] ![0, 0] S1024x1024
  pads_S1024x512_S1024x512_000_000 : S1024x512.Pads (![0, 0] : Fin 2 → Nat) ![0, 0] ![0, 0] S1024x512
  pads_S1024_S1024_000 : S1024.Pads (![0] : Fin 1 → Nat) ![0] ![0] S1024
  shapeCasts_S1024_S1x1024 : S1024.ShapeCasts S1x1024
  shapeCasts_S512_S1x512 : S512.ShapeCasts S1x512
  shapeCasts_S512x32x512_S16384x512 : S512x32x512.ShapeCasts S16384x512
  shapeCasts_S512x32x16_S16384x16 : S512x32x16.ShapeCasts S16384x16
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S16384x512_S512x32x512 : S16384x512.ShapeCasts S512x32x512
  dot_S2048x512_S512x1024_S2048x1024_1_0_0_1_n_n_wf : DotDims.WF S2048x512 S512x1024 S2048x1024 [1] [0] [0] [1] [] []
  dot_S2048x16_S16x1024_S2048x1024_1_0_0_1_n_n_wf : DotDims.WF S2048x16 S16x1024 S2048x1024 [1] [0] [0] [1] [] []
  dot_S2048x1024_S1024x1024_S2048x1024_1_0_0_1_n_n_wf : DotDims.WF S2048x1024 S1024x1024 S2048x1024 [1] [0] [0] [1] [] []
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .bf16 = 32 ∨ (Rect.block (s := S16384x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S16384x16.size a
  hwx0_1 : ∀ i : grid0.Coords, EltTy.bits .bf16 = 32 ∨ (Rect.block (s := S16384x16) S2048x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .bf16 = 32 ∨ (Rect.block (s := S16x1024) S16x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S16384x512.size a
  hwx0_9 : ∀ i : grid0.Coords, EltTy.bits .f32 = 32 ∨ (Rect.block (s := S16384x512) S2048x512.size (cc0_transform_9 i) (hinb0_9 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v17) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S2048x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== Proof.LibPlainMatmul.lean ====
/-
  A plain matrix product read entry by entry over the extended reals.

  For the dimension numbers of an ordinary product, [M, K] by [K, N] with the left operand contracted on its
  second axis and the right operand on its first, the product accumulated into the zero array has at
  row p and column q the sum over k of (left at (p, k)) times (right at (k, q)). The contraction index of such a
  product has one coordinate, which ranges over K.
-/
import Idealize.ShloMosaic.PureOps.Ideal.Laws
import Idealize.ShloMosaic.Lib.ValueIdx

namespace Cert.Lib.PlainMatmul

open Idealize.ShloMosaic Idealize.ShloMosaic.ValueIdx

variable {M K N : ℕ}

/-- An ordinary product contracts one axis. -/
theorem rank_contr : (DotDims.plain M K N).contr.rank = 1 := rfl

/-- The contracted axis has K positions. -/
theorem size_contr : (DotDims.plain M K N).contr.size ⟨0, by rw [rank_contr]; exact Nat.one_pos⟩ = K := rfl

/-- The contraction positions are the numbers below K. -/
noncomputable abbrev pos : (DotDims.plain M K N).contr.Idx ≃ Fin K :=
  contrEquiv1 (DotDims.plain M K N) K rank_contr size_contr

/-- At output entry (p, q) and contraction position k the left operand is read at (p, k). -/
theorem lhsIdx_eq (p : Fin M) (q : Fin N) (k : Fin K) :
    (DotDims.plain M K N).lhsIdx (ix2 p q) (pos.symm k) = ix2 p k := by
  funext a
  apply Fin.ext
  match a with
  | ⟨0, _⟩ =>
    simp [DotDims.lhsIdx, DotDims.plain]
    rfl
  | ⟨1, _⟩ =>
    refine (DotDims.lhsIdx_val_of_single (DotDims.plain M K N) (cl := (1 : Fin 2)) rfl (ix2 p q) (pos.symm k)).trans ?_
    exact contrEquiv1_symm_val (DotDims.plain M K N) K rank_contr size_contr k

/-- At output entry (p, q) and contraction position k the right operand is read at (k, q). -/
theorem rhsIdx_eq (p : Fin M) (q : Fin N) (k : Fin K) :
    (DotDims.plain M K N).rhsIdx (ix2 p q) (pos.symm k) = ix2 k q := by
  funext a
  apply Fin.ext
  match a with
  | ⟨0, _⟩ =>
    refine (DotDims.rhsIdx_val_of_single (DotDims.plain M K N) (cr := (0 : Fin 2)) rfl (ix2 p q) (pos.symm k)).trans ?_
    exact contrEquiv1_symm_val (DotDims.plain M K N) K rank_contr size_contr k
  | ⟨1, _⟩ =>
    simp [DotDims.rhsIdx, DotDims.plain]
    rfl

/-- The product into the zero array, at entry (p, q), is the sum over k of the products of the operands' entries
    (p, k) and (k, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (pos (M := M) (K := K) (N := N)).symm]
  exact Finset.sum_congr rfl fun k _ => by rw [lhsIdx_eq, rhsIdx_eq]

end Cert.Lib.PlainMatmul
-- ==== Proof.Spec.lean ====
/-
  The function both programs compute: a perceptron with two hidden layers, applied to every row.

  A row consists of 512 features x and a 16-entry indicator a. With weight matrices W1x (512 by 1024), W1a (16 by
  1024), W2 (1024 by 1024), W3 (1024 by 512) and bias rows b1, b2, b3, and with z the threshold of the two
  rectifiers,

      h1 j = max ((sum_i x i * W1x i j + sum_i a i * W1a i j) + b1 j) z
      h2 k = max ((sum_j h1 j * W2 j k) + b2 k) z
      out q = (sum_k h2 k * W3 k q) + b3 q.

  Everything is read over the extended reals, with the additions grouped exactly as written. Entry (r, q) of the
  result depends on row r of the two row-indexed inputs only; this is why the result does not depend on how the
  rows are cut into tiles.
-/
import Idealize.ShloMosaic.PureOps.Ideal
import Idealize.ShloMosaic.Lib.ValueIdx

noncomputable section

namespace Cert.Perceptron

open Idealize.ShloMosaic Idealize.ShloMosaic.ValueIdx

/-- The first hidden layer of one row. -/
def hidden1 (z : EReal) (x : Fin 512 → EReal) (a : Fin 16 → EReal) (W1x : Fin 512 → Fin 1024 → EReal)
    (W1a : Fin 16 → Fin 1024 → EReal) (b1 : Fin 1024 → EReal) (j : Fin 1024) : EReal :=
  max (((∑ i : Fin 512, x i * W1x i j) + ∑ i : Fin 16, a i * W1a i j) + b1 j) z

/-- The second hidden layer, from the first. -/
def hidden2 (z : EReal) (h1 : Fin 1024 → EReal) (W2 : Fin 1024 → Fin 1024 → EReal) (b2 : Fin 1024 → EReal)
    (k : Fin 1024) : EReal :=
  max ((∑ j : Fin 1024, h1 j * W2 j k) + b2 k) z

/-- The output layer, from the second hidden layer. -/
def output (h2 : Fin 1024 → EReal) (W3 : Fin 1024 → Fin 512 → EReal) (b3 : Fin 512 → EReal) (q : Fin 512) : EReal :=
  (∑ k : Fin 1024, h2 k * W3 k q) + b3 q

/-- One row of the result. -/
def row (z : EReal) (x : Fin 512 → EReal) (a : Fin 16 → EReal) (W1x : Fin 512 → Fin 1024 → EReal)
    (W1a : Fin 16 → Fin 1024 → EReal) (b1 : Fin 1024 → EReal) (W2 : Fin 1024 → Fin 1024 → EReal)
    (b2 : Fin 1024 → EReal) (W3 : Fin 1024 → Fin 512 → EReal) (b3 : Fin 512 → EReal) : Fin 512 → EReal :=
  output (hidden2 z (hidden1 z x a W1x W1a b1) W2 b2) W3 b3

/-- The threshold of the rectifiers: the value of the all-zero word. -/
abbrev zero : EReal := Ideal.ofBits .f32 0x00000000#32

/-- The whole result, 16384 rows by 512 columns, from the nine arrays the tiled computation is given: the rows, the
    indicators, the four weight matrices and the three bias rows (each bias an array of one row). -/
def whole (lat : (⟨2, ![16384, 512]⟩ : Shape).Idx → EReal) (ind : (⟨2, ![16384, 16]⟩ : Shape).Idx → EReal)
    (w1x : (⟨2, ![512, 1024]⟩ : Shape).Idx → EReal) (w1a : (⟨2, ![16, 1024]⟩ : Shape).Idx → EReal)
    (b1 : (⟨2, ![1, 1024]⟩ : Shape).Idx → EReal) (w2 : (⟨2, ![1024, 1024]⟩ : Shape).Idx → EReal)
    (b2 : (⟨2, ![1, 1024]⟩ : Shape).Idx → EReal) (w3 : (⟨2, ![1024, 512]⟩ : Shape).Idx → EReal)
    (b3 : (⟨2, ![1, 512]⟩ : Shape).Idx → EReal) : (⟨2, ![16384, 512]⟩ : Shape).Idx → EReal := fun i =>
  row zero (fun k => lat (ix2 (i 0) k)) (fun k => ind (ix2 (i 0) k)) (fun a b => w1x (ix2 a b)) (fun a b => w1a (ix2 a b))
    (fun j => b1 (ix2 (0 : Fin 1) j)) (fun a b => w2 (ix2 a b)) (fun j => b2 (ix2 (0 : Fin 1) j)) (fun a b => w3 (ix2 a b))
    (fun j => b3 (ix2 (0 : Fin 1) j)) (i 1)

end Cert.Perceptron

end
-- ==== Proof.LibTile.lean ====
/-
  A tile of R rows, pushed through the three layers by whole-tile operations, holds at (p, q) the row function of
  the tile's row p.

  The whole-tile computation is: two matrix products into zero, added; a bias row broadcast over the R rows, added;
  the rectifier (maximum with a constant tile); a change of number format (the identity on the extended reals);
  a product with the second weight matrix, bias, rectifier and format change again; a product with the third
  weight matrix and its bias. Each product's entry (p, j) reads row p of its left operand and column j of its right
  operand, a broadcast bias reads its one row, and the other steps act entry by entry, so entry (p, q) of the end
  result is the perceptron's output q on row p. The number of rows R is arbitrary.
-/
import proofs.«128546_g2000409334862639_pallasbulk_1019_3_alg».proof.Proof.LibPlainMatmul
import proofs.«128546_g2000409334862639_pallasbulk_1019_3_alg».proof.Proof.Spec
import Idealize.ShloMosaic.Lib.ValueLayout

noncomputable section

namespace Cert.Perceptron.Tile

open Idealize.ShloMosaic Idealize.ShloMosaic.ValueIdx

/-- A product whose dimension numbers are those of an ordinary product, into zero, entry by entry. -/
theorem dense_apply {M K N : ℕ} {φ₁ φ₂ : FTy} (d : DotDims ⟨2, ![M, K]⟩ ⟨2, ![K, N]⟩ ⟨2, ![M, N]⟩)
    (hd : d = DotDims.plain M K N) (lhs : FVec Ideal ⟨2, ![M, K]⟩ φ₁) (rhs : FVec Ideal ⟨2, ![K, N]⟩ φ₂)
    (p : Fin M) (q : Fin N) :
    matmul d none lhs rhs (constant ⟨2, ![M, N]⟩ .f32 0x00000000#32) (ix2 p q) = ∑ k : Fin K, lhs (ix2 p k) * rhs (ix2 k q) := by
  subst hd
  exact Cert.Lib.PlainMatmul.matmul_zero_apply none lhs rhs p q

variable {R : ℕ}

/-- The first hidden layer on a tile, at (p, j). -/
theorem layer1_apply {φx φa φ2 φ3 : FTy}
    (d1 : DotDims ⟨2, ![R, 512]⟩ ⟨2, ![512, 1024]⟩ ⟨2, ![R, 1024]⟩) (h1 : d1 = DotDims.plain R 512 1024)
    (d2 : DotDims ⟨2, ![R, 16]⟩ ⟨2, ![16, 1024]⟩ ⟨2, ![R, 1024]⟩) (h2 : d2 = DotDims.plain R 16 1024)
    (hb : (⟨2, ![1, 1024]⟩ : Shape).Broadcasts ⟨2, ![R, 1024]⟩)
    (X : FVec Ideal ⟨2, ![R, 512]⟩ φx) (A : FVec Ideal ⟨2, ![R, 16]⟩ φa)
    (W1x : FVec Ideal ⟨2, ![512, 1024]⟩ φ2) (W1a : FVec Ideal ⟨2, ![16, 1024]⟩ φ3)
    (b1 : FVec Ideal ⟨2, ![1, 1024]⟩ .f32) (p : Fin R) (j : Fin 1024) :
    maximumf (addf (addf (matmul d1 none X W1x (constant ⟨2, ![R, 1024]⟩ .f32 0x00000000#32))
          (matmul d2 none A W1a (constant ⟨2, ![R, 1024]⟩ .f32 0x00000000#32)))
        (broadcastTo ⟨2, ![R, 1024]⟩ b1 hb))
      (broadcast ⟨2, ![R, 1024]⟩ (Scalar.ofBits .f32 0x00000000#32)) (ix2 p j)
      = hidden1 zero (fun i => X (ix2 p i)) (fun i => A (ix2 p i)) (fun a b => W1x (ix2 a b)) (fun a b => W1a (ix2 a b))
          (fun c => b1 (ix2 (0 : Fin 1) c)) j := by
  refine (maximumf_apply _ _ _).trans (congrArg₂ max ?_ rfl)
  refine (addf_apply _ _ _).trans (congrArg₂ (· + ·) ?_ (broadcastTo_1b_ab_apply b1 hb p j))
  exact (addf_apply _ _ _).trans (congrArg₂ (· + ·) (dense_apply d1 h1 X W1x p j) (dense_apply d2 h2 A W1a p j))

/-- The second hidden layer on a tile, at (p, k), from the tile H of first-layer values. -/
theorem layer2_apply {φh φw : FTy}
    (d3 : DotDims ⟨2, ![R, 1024]⟩ ⟨2, ![1024, 1024]⟩ ⟨2, ![R, 1024]⟩) (h3 : d3 = DotDims.plain R 1024 1024)
    (hb : (⟨2, ![1, 1024]⟩ : Shape).Broadcasts ⟨2, ![R, 1024]⟩)
    (H : FVec Ideal ⟨2, ![R, 1024]⟩ φh) (W2 : FVec Ideal ⟨2, ![1024, 1024]⟩ φw) (b2 : FVec Ideal ⟨2, ![1, 1024]⟩ .f32)
    (p : Fin R) (k : Fin 1024) :
    maximumf (addf (matmul d3 none H W2 (constant ⟨2, ![R, 1024]⟩ .f32 0x00000000#32)) (broadcastTo ⟨2, ![R, 1024]⟩ b2 hb))
      (broadcast ⟨2, ![R, 1024]⟩ (Scalar.ofBits .f32 0x00000000#32)) (ix2 p k)
      = hidden2 zero (fun j => H (ix2 p j)) (fun a b => W2 (ix2 a b)) (fun c => b2 (ix2 (0 : Fin 1) c)) k := by
  refine (maximumf_apply _ _ _).trans (congrArg₂ max ?_ rfl)
  exact (addf_apply _ _ _).trans (congrArg₂ (· + ·) (dense_apply d3 h3 H W2 p k) (broadcastTo_1b_ab_apply b2 hb p k))

/-- The output layer on a tile, at (p, q), from the tile H of second-layer values. -/
theorem layer3_apply {φh φw : FTy}
    (d4 : DotDims ⟨2, ![R, 1024]⟩ ⟨2, ![1024, 512]⟩ ⟨2, ![R, 512]⟩) (h4 : d4 = DotDims.plain R 1024 512)
    (hb : (⟨2, ![1, 512]⟩ : Shape).Broadcasts ⟨2, ![R, 512]⟩)
    (H : FVec Ideal ⟨2, ![R, 1024]⟩ φh) (W3 : FVec Ideal ⟨2, ![1024, 512]⟩ φw) (b3 : FVec Ideal ⟨2, ![1, 512]⟩ .f32)
    (p : Fin R) (q : Fin 512) :
    addf (matmul d4 none H W3 (constant ⟨2, ![R, 512]⟩ .f32 0x00000000#32)) (broadcastTo ⟨2, ![R, 512]⟩ b3 hb) (ix2 p q)
      = output (fun k => H (ix2 p k)) (fun a b => W3 (ix2 a b)) (fun c => b3 (ix2 (0 : Fin 1) c)) q :=
  (addf_apply _ _ _).trans (congrArg₂ (· + ·) (dense_apply d4 h4 H W3 p q) (broadcastTo_1b_ab_apply b3 hb p q))

/-- The three layers on a tile, at (p, q): the row function of the tile's row p. -/
theorem tile_apply {φx φa φ2 φ3 φ5 φ7 : FTy}
    (d1 : DotDims ⟨2, ![R, 512]⟩ ⟨2, ![512, 1024]⟩ ⟨2, ![R, 1024]⟩) (h1 : d1 = DotDims.plain R 512 1024)
    (d2 : DotDims ⟨2, ![R, 16]⟩ ⟨2, ![16, 1024]⟩ ⟨2, ![R, 1024]⟩) (h2 : d2 = DotDims.plain R 16 1024)
    (d3 : DotDims ⟨2, ![R, 1024]⟩ ⟨2, ![1024, 1024]⟩ ⟨2, ![R, 1024]⟩) (h3 : d3 = DotDims.plain R 1024 1024)
    (d4 : DotDims ⟨2, ![R, 1024]⟩ ⟨2, ![1024, 512]⟩ ⟨2, ![R, 512]⟩) (h4 : d4 = DotDims.plain R 1024 512)
    (hb1 : (⟨2, ![1, 1024]⟩ : Shape).Broadcasts ⟨2, ![R, 1024]⟩) (hb3 : (⟨2, ![1, 512]⟩ : Shape).Broadcasts ⟨2, ![R, 512]⟩)
    (ht : FTy.bf16.bits < FTy.f32.bits)
    (X : FVec Ideal ⟨2, ![R, 512]⟩ φx) (A : FVec Ideal ⟨2, ![R, 16]⟩ φa)
    (W1x : FVec Ideal ⟨2, ![512, 1024]⟩ φ2) (W1a : FVec Ideal ⟨2, ![16, 1024]⟩ φ3) (b1 : FVec Ideal ⟨2, ![1, 1024]⟩ .f32)
    (W2 : FVec Ideal ⟨2, ![1024, 1024]⟩ φ5) (b2 : FVec Ideal ⟨2, ![1, 1024]⟩ .f32)
    (W3 : FVec Ideal ⟨2, ![1024, 512]⟩ φ7) (b3 : FVec Ideal ⟨2, ![1, 512]⟩ .f32) (p : Fin R) (q : Fin 512) :
    addf (matmul d4 none
        (truncf .bf16 (maximumf (addf (matmul d3 none
            (truncf .bf16 (maximumf (addf (addf (matmul d1 none X W1x (constant ⟨2, ![R, 1024]⟩ .f32 0x00000000#32))
                  (matmul d2 none A W1a (constant ⟨2, ![R, 1024]⟩ .f32 0x00000000#32)))
                (broadcastTo ⟨2, ![R, 1024]⟩ b1 hb1))
              (broadcast ⟨2, ![R, 1024]⟩ (Scalar.ofBits .f32 0x00000000#32))) ht)
            W2 (constant ⟨2, ![R, 1024]⟩ .f32 0x00000000#32)) (broadcastTo ⟨2, ![R, 1024]⟩ b2 hb1))
          (broadcast ⟨2, ![R, 1024]⟩ (Scalar.ofBits .f32 0x00000000#32))) ht)
        W3 (constant ⟨2, ![R, 512]⟩ .f32 0x00000000#32)) (broadcastTo ⟨2, ![R, 512]⟩ b3 hb3) (ix2 p q)
      = row zero (fun i => X (ix2 p i)) (fun i => A (ix2 p i)) (fun a b => W1x (ix2 a b)) (fun a b => W1a (ix2 a b))
          (fun c => b1 (ix2 (0 : Fin 1) c)) (fun a b => W2 (ix2 a b)) (fun c => b2 (ix2 (0 : Fin 1) c))
          (fun a b => W3 (ix2 a b)) (fun c => b3 (ix2 (0 : Fin 1) c)) q := by
  refine (layer3_apply d4 h4 hb3 _ W3 b3 p q).trans ?_
  unfold row
  refine congrArg (fun h => output h (fun a b => W3 (ix2 a b)) (fun c => b3 (ix2 (0 : Fin 1) c)) q) (funext fun k => ?_)
  refine (truncf_apply _ ht _).trans ((layer2_apply d3 h3 hb1 _ W2 b2 p k).trans ?_)
  refine congrArg (fun h => hidden2 zero h (fun a b => W2 (ix2 a b)) (fun c => b2 (ix2 (0 : Fin 1) c)) k) (funext fun j => ?_)
  exact (truncf_apply _ ht _).trans (layer1_apply d1 h1 d2 h2 hb1 X A W1x W1a b1 p j)

end Cert.Perceptron.Tile

end
-- ==== Proof.KernelTile.lean ====
/-
  What the tile computation of this program stores, entry by entry.

  The stored tile is the three-layer computation on the loaded blocks: 1024 rows of features and of indicators, the
  whole weight matrices and bias rows. The shape casts in it are casts of a shape to itself, hence identities, and
  the change of number format applied to the rows before the first product is the identity on the extended reals. So
  entry (p, q) of the stored tile is the perceptron's output q on row p of the two row blocks.
-/
import proofs.«128546_g2000409334862639_pallasbulk_1019_3_alg».proof.Proof.Gen.KernelIdeal.Skeleton
import proofs.«128546_g2000409334862639_pallasbulk_1019_3_alg».proof.Proof.LibTile
import Idealize.ShloMosaic.Lib.Pipeline.Value

noncomputable section

namespace Cert.KernelIdeal.Tile

open Idealize.ShloMosaic Idealize.ShloMosaic.ValueIdx Cert.KernelIdeal Cert.KernelIdeal.Gen Cert.Perceptron

/-- The stored tile at (p, q), from the nine loaded blocks. -/
theorem payload_apply (x0 : FVec Ideal S1024x512 .f32) (x1 : FVec Ideal S1024x16 .bf16) (x2 : FVec Ideal S512x1024 .bf16)
    (x3 : FVec Ideal S16x1024 .bf16) (x4 : FVec Ideal S1x1024 .f32) (x5 : FVec Ideal S1024x1024 .bf16)
    (x6 : FVec Ideal S1x1024 .f32) (x7 : FVec Ideal S1024x512 .bf16) (x8 : FVec Ideal S1x512 .f32)
    (p : Fin 1024) (q : Fin 512) :
    k0_pay1 (F := Ideal) (k0_pay2 (F := Ideal) x0 x2 x1 x3 x4 x5 x6 x7) (k0_pay3 (F := Ideal) x8) (ix2 p q)
      = row zero (fun i => x0 (ix2 p i)) (fun i => x1 (ix2 p i)) (fun a b => x2 (ix2 a b)) (fun a b => x3 (ix2 a b))
          (fun c => x4 (ix2 (0 : Fin 1) c)) (fun a b => x5 (ix2 a b)) (fun c => x6 (ix2 (0 : Fin 1) c))
          (fun a b => x7 (ix2 a b)) (fun c => x8 (ix2 (0 : Fin 1) c)) q := by
  unfold k0_pay1 k0_pay2 k0_pay3
  simp only [shapeCast_self]
  exact Tile.tile_apply dot_S1024x512_S512x1024_S1024x1024_1_0_0_1_n_n rfl dot_S1024x16_S16x1024_S1024x1024_1_0_0_1_n_n rfl
    dot_S1024x1024_S1024x1024_S1024x1024_1_0_0_1_n_n rfl dot_S1024x1024_S1024x512_S1024x512_1_0_0_1_n_n rfl
    _ _ _ (truncf .bf16 x0 Gen.bitsLt_bf16_f32) x1 x2 x3 x4 x5 x6 x7 x8 p q

end Cert.KernelIdeal.Tile

end
-- ==== Proof.KernelWhole.lean ====
/-
  The result array of this program's tiled region, as one function of the arrays the region is given.

  The region has 16 grid points. Point t is given rows 1024·t … 1024·t + 1023 of the feature array and of the indicator
  array and the whole of every weight and bias array, and writes back rows 1024·t … 1024·t + 1023 of the result. What it
  writes back is, entry by entry, the perceptron's output on the corresponding row (the tile lemma), so it is the
  block of one whole-array function, and the 16 blocks cover all 16384 rows: row r lies in the block of point
  r / 1024. Hence the result array ends as that function.
-/
import proofs.«128546_g2000409334862639_pallasbulk_1019_3_alg».proof.Proof.Gen.KernelIdeal.Frame
import proofs.«128546_g2000409334862639_pallasbulk_1019_3_alg».proof.Proof.KernelTile
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Perceptron

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point t: the two row-indexed inputs and the output at block row t, every
    weight and bias array at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Every block row is some point's. -/
theorem idx_onto : ∀ b : Fin 16, ∃ t : Fin cfg0.N, t.val = b.val :=
  (by decide +kernel : ∀ b : Fin 16, ∃ t : Fin grid0.N, t.val = b.val)

theorem point_lt (t : Fin cfg0.N) : t.val < 16 :=
  lt_of_lt_of_eq t.isLt N_0

/-- Row p of point t's blocks is row 1024·t + p of the arrays. -/
def rowOf (t : Fin cfg0.N) (p : Fin 1024) : Fin 16384 :=
  ⟨t.val * 1024 + p.val, by have := point_lt t; have := p.isLt; omega⟩

/-! ### Each input block, read off its array -/

theorem read0 (c : Dev nD) (t : Fin cfg0.N) (p : Fin 1024) (i : Fin 512) :
    iblk m c 0 t (ix2 p i) = V m c main_v10 (ix2 (rowOf t p) i) := by
  obtain ⟨e0, e1, -⟩ := idx_facts t
  unfold iblk
  rw [View.read_apply]
  show V m c main_v10 _ = V m c main_v10 _
  refine congrArg (V m c main_v10) (funext fun a => Fin.ext ?_)
  match a with
  | ⟨0, _⟩ => show win0_0.index t (0 : Fin 2) * 1024 + 1 * p.val = t.val * 1024 + p.val; omega
  | ⟨1, _⟩ => show win0_0.index t (1 : Fin 2) * 512 + 1 * i.val = i.val; omega

theorem read1 (c : Dev nD) (t : Fin cfg0.N) (p : Fin 1024) (i : Fin 16) :
    iblk m c 1 t (ix2 p i) = V m c main_v11 (ix2 (rowOf t p) i) := by
  obtain ⟨-, -, e0, e1, -⟩ := idx_facts t
  unfold iblk
  rw [View.read_apply]
  show V m c main_v11 _ = V m c main_v11 _
  refine congrArg (V m c main_v11) (funext fun a => Fin.ext ?_)
  match a with
  | ⟨0, _⟩ => show win0_1.index t (0 : Fin 2) * 1024 + 1 * p.val = t.val * 1024 + p.val; omega
  | ⟨1, _⟩ => show win0_1.index t (1 : Fin 2) * 16 + 1 * i.val = i.val; omega

theorem read2 (c : Dev nD) (t : Fin cfg0.N) (a : Fin 512) (b : Fin 1024) :
    iblk m c 2 t (ix2 a b) = V m c main_v2 (ix2 a b) := by
  obtain ⟨-, -, -, -, e0, e1, -⟩ := idx_facts t
  unfold iblk
  rw [View.read_apply]
  show V m c main_v2 _ = V m c main_v2 _
  refine congrArg (V m c main_v2) (funext fun d => Fin.ext ?_)
  match d with
  | ⟨0, _⟩ => show win0_2.index t (0 : Fin 2) * 512 + 1 * a.val = a.val; omega
  | ⟨1, _⟩ => show win0_2.index t (1 : Fin 2) * 1024 + 1 * b.val = b.val; omega

theorem read3 (c : Dev nD) (t : Fin cfg0.N) (a : Fin 16) (b : Fin 1024) :
    iblk m c 3 t (ix2 a b) = V m c main_v4 (ix2 a b) := by
  obtain ⟨-, -, -, -, -, -, e0, e1, -⟩ := idx_facts t
  unfold iblk
  rw [View.read_apply]
  show V m c main_v4 _ = V m c main_v4 _
  refine congrArg (V m c main_v4) (funext fun d => Fin.ext ?_)
  match d with
  | ⟨0, _⟩ => show win0_3.index t (0 : Fin 2) * 16 + 1 * a.val = a.val; omega
  | ⟨1, _⟩ => show win0_3.index t (1 : Fin 2) * 1024 + 1 * b.val = b.val; omega

theorem read4 (c : Dev nD) (t : Fin cfg0.N) (a : Fin 1) (b : Fin 1024) :
    iblk m c 4 t (ix2 a b) = V m c main_v7 (ix2 a b) := by
  obtain ⟨-, -, -, -, -, -, -, -, e0, e1, -⟩ := idx_facts t
  unfold iblk
  rw [View.read_apply]
  show V m c main_v7 _ = V m c main_v7 _
  refine congrArg (V m c main_v7) (funext fun d => Fin.ext ?_)
  match d with
  | ⟨0, _⟩ => show win0_4.index t (0 : Fin 2) * 1 + 1 * a.val = a.val; omega
  | ⟨1, _⟩ => show win0_4.index t (1 : Fin 2) * 1024 + 1 * b.val = b.val; omega

theorem read5 (c : Dev nD) (t : Fin cfg0.N) (a : Fin 1024) (b : Fin 1024) :
    iblk m c 5 t (ix2 a b) = V m c main_v5 (ix2 a b) := by
  obtain ⟨-, -, -, -, -, -, -, -, -, -, e0, e1, -⟩ := idx_facts t
  unfold iblk
  rw [View.read_apply]
  show V m c main_v5 _ = V m c main_v5 _
  refine congrArg (V m c main_v5) (funext fun d => Fin.ext ?_)
  match d with
  | ⟨0, _⟩ => show win0_5.index t (0 : Fin 2) * 1024 + 1 * a.val = a.val; omega
  | ⟨1, _⟩ => show win0_5.index t (1 : Fin 2) * 1024 + 1 * b.val = b.val; omega

theorem read6 (c : Dev nD) (t : Fin cfg0.N) (a : Fin 1) (b : Fin 1024) :
    iblk m c 6 t (ix2 a b) = V m c main_v8 (ix2 a b) := by
  obtain ⟨-, -, -, -, -, -, -, -, -, -, -, -, e0, e1, -⟩ := idx_facts t
  unfold iblk
  rw [View.read_apply]
  show V m c main_v8 _ = V m c main_v8 _
  refine congrArg (V m c main_v8) (funext fun d => Fin.ext ?_)
  match d with
  | ⟨0, _⟩ => show win0_6.index t (0 : Fin 2) * 1 + 1 * a.val = a.val; omega
  | ⟨1, _⟩ => show win0_6.index t (1 : Fin 2) * 1024 + 1 * b.val = b.val; omega

theorem read7 (c : Dev nD) (t : Fin cfg0.N) (a : Fin 1024) (b : Fin 512) :
    iblk m c 7 t (ix2 a b) = V m c main_v6 (ix2 a b) := by
  obtain ⟨-, -, -, -, -, -, -, -, -, -, -, -, -, -, e0, e1, -⟩ := idx_facts t
  unfold iblk
  rw [View.read_apply]
  show V m c main_v6 _ = V m c main_v6 _
  refine congrArg (V m c main_v6) (funext fun d => Fin.ext ?_)
  match d with
  | ⟨0, _⟩ => show win0_7.index t (0 : Fin 2) * 1024 + 1 * a.val = a.val; omega
  | ⟨1, _⟩ => show win0_7.index t (1 : Fin 2) * 512 + 1 * b.val = b.val; omega

theorem read8 (c : Dev nD) (t : Fin cfg0.N) (a : Fin 1) (b : Fin 512) :
    iblk m c 8 t (ix2 a b) = V m c main_v9 (ix2 a b) := by
  obtain ⟨-, -, -, -, -, -, -, -, -, -, -, -, -, -, -, -, e0, e1, -⟩ := idx_facts t
  unfold iblk
  rw [View.read_apply]
  show V m c main_v9 _ = V m c main_v9 _
  refine congrArg (V m c main_v9) (funext fun d => Fin.ext ?_)
  match d with
  | ⟨0, _⟩ => show win0_8.index t (0 : Fin 2) * 1 + 1 * a.val = a.val; omega
  | ⟨1, _⟩ => show win0_8.index t (1 : Fin 2) * 512 + 1 * b.val = b.val; omega

/-! ### The result array -/

/-- The result of the region: the perceptron on every row, from the nine arrays as the region finds them. -/
def result (c : Dev nD) : Buf (Elt Ideal) ((c : Thread nD τ).loc main_v12) :=
  whole (V m c main_v10) (V m c main_v11) (V m c main_v2) (V m c main_v4) (V m c main_v7) (V m c main_v5) (V m c main_v8) (V m c main_v6) (V m c main_v9)

/-- Entry (p, q) of the output block at point t is entry (1024·t + p, q) of the array. -/
theorem emb9 (t : Fin cfg0.N) (p : Fin 1024) (q : Fin 512) :
    ((cfg0.win 9).blk t).view.emb (ix2 p q) = ix2 (rowOf t p) q := by
  obtain ⟨-, -, -, -, -, -, -, -, -, -, -, -, -, -, -, -, -, -, e0, e1⟩ := idx_facts t
  funext a
  apply Fin.ext
  match a with
  | ⟨0, _⟩ => show win0_9.index t (0 : Fin 2) * 1024 + 1 * p.val = t.val * 1024 + p.val; omega
  | ⟨1, _⟩ => show win0_9.index t (1 : Fin 2) * 512 + 1 * q.val = q.val; omega

/-- What point t writes back is block t of the result. -/
theorem flushed_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after0_9]
  unfold out0_9
  rw [View.canon_unit_zero hz]
  simp only [View.ld_unit_zero (S := S1024x512) hz, View.ld_unit_zero (S := S1024x16) hz, View.ld_unit_zero (S := S512x1024) hz,
    View.ld_unit_zero (S := S16x1024) hz, View.ld_unit_zero (S := S1x1024) hz, View.ld_unit_zero (S := S1024x1024) hz,
    View.ld_unit_zero (S := S1024x512) hz, View.ld_unit_zero (S := S1x512) hz]
  funext y
  obtain ⟨p, q, rfl⟩ : ∃ (p : Fin 1024) (q : Fin 512), y = ix2 p q := ⟨y 0, y 1, eq_ix2 y⟩
  refine (Cert.KernelIdeal.Tile.payload_apply _ _ _ _ _ _ _ _ _ p q).trans ?_
  rw [View.read_apply, emb9]
  simp only [read0 m c t, read1 m c t, read2 m c t, read3 m c t, read4 m c t, read5 m c t, read6 m c t, read7 m c t, read8 m c t]
  rfl

/-- An index of the array is in point t's block iff each coordinate is in the block's range. -/
theorem mem_blk (t : Fin cfg0.N) (i : S16384x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v12).slice (win0_9.rect t)).set ↔ _
  rw [View.set_slice_whole, Rect.mem_set_unit]
  exact Iff.rfl

/-- Every row of the array is in some point's block. -/
theorem cover (i : S16384x512.Idx) : ∃ t : Fin cfg0.N, (cfg0.win 9).flush t = true ∧ i ∈ ((cfg0.win 9).blk t).view.set := by
  have hi0 : (i 0).val < 16384 := (i 0).isLt
  have hi1 : (i 1).val < 512 := (i 1).isLt
  obtain ⟨t, ht⟩ := idx_onto ⟨(i 0).val / 1024, by omega⟩
  have ht' : t.val = (i 0).val / 1024 := ht
  obtain ⟨-, -, -, -, -, -, -, -, -, -, -, -, -, -, -, -, -, -, e0, e1⟩ := idx_facts t
  refine ⟨t, flush0_9 t, ?_⟩
  rw [mem_blk]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 512 ≤ (i 1).val ∧ (i 1).val < win0_9.index t (1 : Fin 2) * 512 + 512; omega

/-- The result array after the region. -/
theorem final (c : Dev nD) : (dats m 0 c).arrAt 9 cfg0.N = result m c :=
  (dats m 0 c).arrAt_eq_of_cover 9 (result m c) (fun t _ => flushed_eq m c t) cover

end Cert.KernelIdeal.Whole

end
-- ==== Proof.KernelRun.lean ====
/-
  A run of this program, read: where its result and its arguments end.

  After the tiled region the program reshapes the region's 16384-by-512 result to 512 by 32 by 512, and nothing
  else. So every run ends with the result buffer at that reshape of the whole-array perceptron function, and with
  the eight argument buffers as they were.
-/
import proofs.«128546_g2000409334862639_pallasbulk_1019_3_alg».proof.Proof.KernelWhole
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- What the program's result buffer holds after the operations that follow the region: the region's result,
    reshaped. -/
theorem tail_result (c : Dev nD) :
    Pipeline.afterTail₀ cfgs (dats m) 0 (V0 m) [hostOps1] c main_v13
      = shapeCast S512x32x512 (result m c) Gen.shapeCasts_S16384x512_S512x32x512 := by
  unfold Pipeline.afterTail₀
  show StableHlo.after hostOps1 _ (Proc.devRef .tc main_v13) = _
  after_results
  exact congrArg (fun x => shapeCast S512x32x512 x Gen.shapeCasts_S16384x512_S512x32x512)
    ((Pipeline.withArrays_arr spec0 launch0.win.arr_inj c _ _ 9).trans (final m c))

/-- Every run ends with the result at the reshaped perceptron function and the arguments unchanged. -/
theorem run : θ_run defs (onTc (τ := τ) (main (F := Ideal))) ⟨m, fun _ => 0, ρ⟩ fun r => ∀ c : Dev nD,
      r.2.mem ((c.tc : Thread nD τ).loc main_v13) = shapeCast S512x32x512 (result m c) Gen.shapeCasts_S16384x512_S512x32x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v13 (Pipeline.mem_restRefs_of main_v13 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Whole

end
-- ==== Proof.KernelGiven.lean ====
/-
  The nine arrays the tiled region is given, as functions of the program's arguments.

  Before the region the program reshapes the feature argument to 16384 rows, builds the 16-entry indicator of the
  integer argument (an entry is one where the broadcast integer equals the broadcast position 0..15, else zero)
  and reshapes it to 16384 rows, cuts the first weight argument into its first 512 rows and its last 16 rows,
  and reshapes each bias to one row. The changes of number format on the way are the identity on the extended reals.
-/
import proofs.«128546_g2000409334862639_pallasbulk_1019_3_alg».proof.Proof.Gen.KernelIdeal.Frame
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelIdeal.Given

open Cert.KernelIdeal Cert.KernelIdeal.Gen

variable (m : (ℓ : Loc nD τ sig) → Buf (Elt Ideal) ℓ)

/-- The rows: the feature argument reshaped. -/
theorem rows (c : Dev nD) : V m c main_v10 = shapeCast S16384x512 (m ((c : Thread nD τ).loc main_arg0)) Gen.shapeCasts_S512x32x512_S16384x512 := by
  dsimp only [Gen.V, Gen.V0]
  simp only [hostOps0, hostOps0_1, List.flatten_cons, List.flatten_nil, List.append_nil, List.cons_append,
    List.nil_append]
  after_results
  rfl

/-- The indicators: equality of the broadcast integer argument with the broadcast positions, as zeros and ones, reshaped. -/
theorem indicators (c : Dev nD) : V m c main_v11 = shapeCast S16384x16 (uitofp (F := Ideal) .bf16 (cmpi .eq
        (broadcastInDim S512x32x16 ![0, 1, 2] Gen.bcast_S512x32x1_S512x32x16_0_1_2
          (broadcastInDim S512x32x1 ![0, 1] Gen.bcast_S512x32_S512x32x1_0_1 (m ((c : Thread nD τ).loc main_arg1))))
        (broadcastInDim S512x32x16 ![0, 1, 2] Gen.bcast_S1x1x16_S512x32x16_0_1_2 (iotaInDim S1x1x16 32 2))))
      Gen.shapeCasts_S512x32x16_S16384x16 := by
  dsimp only [Gen.V, Gen.V0]
  simp only [hostOps0, hostOps0_1, List.flatten_cons, List.flatten_nil, List.append_nil, List.cons_append,
    List.nil_append]
  after_results
  rfl

/-- The weights applied to the features: the first 512 rows of the first weight argument. -/
theorem weights1x (c : Dev nD) : V m c main_v2 = extractStridedSlice S512x1024 ![0, 0] (m ((c : Thread nD τ).loc main_arg2)) Gen.slices_S528x1024_S512x1024_0_0 := by
  dsimp only [Gen.V, Gen.V0]
  simp only [hostOps0, hostOps0_1, List.flatten_cons, List.flatten_nil, List.append_nil, List.cons_append,
    List.nil_append]
  after_results
  rfl

/-- The weights applied to the indicators: the last 16 rows of the first weight argument. -/
theorem weights1a (c : Dev nD) : V m c main_v4 = extractStridedSlice S16x1024 ![512, 0] (m ((c : Thread nD τ).loc main_arg2)) Gen.slices_S528x1024_S16x1024_512_0 := by
  dsimp only [Gen.V, Gen.V0]
  simp only [hostOps0, hostOps0_1, List.flatten_cons, List.flatten_nil, List.append_nil, List.cons_append,
    List.nil_append]
  after_results
  rfl

/-- The first bias as one row. -/
theorem bias1 (c : Dev nD) : V m c main_v7 = shapeCast S1x1024 (m ((c : Thread nD τ).loc main_arg3)) Gen.shapeCasts_S1024_S1x1024 := by
  dsimp only [Gen.V, Gen.V0]
  simp only [hostOps0, hostOps0_1, List.flatten_cons, List.flatten_nil, List.append_nil, List.cons_append,
    List.nil_append]
  after_results
  rfl

/-- The second weight matrix. -/
theorem weights2 (c : Dev nD) : V m c main_v5 = m ((c : Thread nD τ).loc main_arg4) := by
  dsimp only [Gen.V, Gen.V0]
  simp only [hostOps0, hostOps0_1, List.flatten_cons, List.flatten_nil, List.append_nil, List.cons_append,
    List.nil_append]
  after_results
  rfl

/-- The second bias as one row. -/
theorem bias2 (c : Dev nD) : V m c main_v8 = shapeCast S1x1024 (m ((c : Thread nD τ).loc main_arg5)) Gen.shapeCasts_S1024_S1x1024 := by
  dsimp only [Gen.V, Gen.V0]
  simp only [hostOps0, hostOps0_1, List.flatten_cons, List.flatten_nil, List.append_nil, List.cons_append,
    List.nil_append]
  after_results
  rfl

/-- The third weight matrix. -/
theorem weights3 (c : Dev nD) : V m c main_v6 = m ((c : Thread nD τ).loc main_arg6) := by
  dsimp only [Gen.V, Gen.V0]
  simp only [hostOps0, hostOps0_1, List.flatten_cons, List.flatten_nil, List.append_nil, List.cons_append,
    List.nil_append]
  after_results
  rfl

/-- The third bias as one row. -/
theorem bias3 (c : Dev nD) : V m c main_v9 = shapeCast S1x512 (m ((c : Thread nD τ).loc main_arg7)) Gen.shapeCasts_S512_S1x512 := by
  dsimp only [Gen.V, Gen.V0]
  simp only [hostOps0, hostOps0_1, List.flatten_cons, List.flatten_nil, List.append_nil, List.cons_append,
    List.nil_append]
  after_results
  rfl

end Cert.KernelIdeal.Given

end
-- ==== Proof.ReferenceTile.lean ====
/-
  What the tile computation of this program stores, entry by entry.

  The stored tile is the three-layer computation on the loaded blocks: 2048 rows of features and of indicators, the
  whole weight matrices and bias rows. The shape casts in it are casts of a shape to itself, hence identities. So
  entry (p, q) of the stored tile is the perceptron's output q on row p of the two row blocks.
-/
import proofs.«128546_g2000409334862639_pallasbulk_1019_3_alg».proof.Proof.Gen.ReferenceIdeal.Skeleton
import proofs.«128546_g2000409334862639_pallasbulk_1019_3_alg».proof.Proof.LibTile
import Idealize.ShloMosaic.Lib.Pipeline.Value

noncomputable section

namespace Cert.ReferenceIdeal.Tile

open Idealize.ShloMosaic Idealize.ShloMosaic.ValueIdx Cert.ReferenceIdeal Cert.ReferenceIdeal.Gen Cert.Perceptron

/-- The stored tile at (p, q), from the nine loaded blocks. -/
theorem payload_apply (x0 : FVec Ideal S2048x512 .bf16) (x1 : FVec Ideal S2048x16 .bf16) (x2 : FVec Ideal S512x1024 .bf16)
    (x3 : FVec Ideal S16x1024 .bf16) (x4 : FVec Ideal S1x1024 .f32) (x5 : FVec Ideal S1024x1024 .bf16)
    (x6 : FVec Ideal S1x1024 .f32) (x7 : FVec Ideal S1024x512 .bf16) (x8 : FVec Ideal S1x512 .f32)
    (p : Fin 2048) (q : Fin 512) :
    k0_pay1 (F := Ideal) x0 x2 x1 x3 x4 x5 x6 x7 x8 (ix2 p q)
      = row zero (fun i => x0 (ix2 p i)) (fun i => x1 (ix2 p i)) (fun a b => x2 (ix2 a b)) (fun a b => x3 (ix2 a b))
          (fun c => x4 (ix2 (0 : Fin 1) c)) (fun a b => x5 (ix2 a b)) (fun c => x6 (ix2 (0 : Fin 1) c))
          (fun a b => x7 (ix2 a b)) (fun c => x8 (ix2 (0 : Fin 1) c)) q := by
  unfold k0_pay1
  simp only [shapeCast_self]
  exact Tile.tile_apply dot_S2048x512_S512x1024_S2048x1024_1_0_0_1_n_n rfl dot_S2048x16_S16x1024_S2048x1024_1_0_0_1_n_n rfl
    dot_S2048x1024_S1024x1024_S2048x1024_1_0_0_1_n_n rfl dot_S2048x1024_S1024x512_S2048x512_1_0_0_1_n_n rfl
    _ _ _ x0 x1 x2 x3 x4 x5 x6 x7 x8 p q

end Cert.ReferenceIdeal.Tile

end
-- ==== Proof.ReferenceWhole.lean ====
/-
  The result array of this program's tiled region, as one function of the arrays the region is given.

  The region has 8 grid points. Point t is given rows 2048·t … 2048·t + 2047 of the feature array and of the indicator
  array and the whole of every weight and bias array, and writes back rows 2048·t … 2048·t + 2047 of the result. What it
  writes back is, entry by entry, the perceptron's output on the corresponding row (the tile lemma), so it is the
  block of one whole-array function, and the 8 blocks cover all 16384 rows: row r lies in the block of point
  r / 2048. Hence the result array ends as that function.
-/
import proofs.«128546_g2000409334862639_pallasbulk_1019_3_alg».proof.Proof.Gen.ReferenceIdeal.Frame
import proofs.«128546_g2000409334862639_pallasbulk_1019_3_alg».proof.Proof.ReferenceTile
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.ReferenceIdeal.Whole

open Cert.ReferenceIdeal Cert.ReferenceIdeal.Gen Cert.Perceptron

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point t: the two row-indexed inputs and the output at block row t, every
    weight and bias array at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Every block row is some point's. -/
theorem idx_onto : ∀ b : Fin 8, ∃ t : Fin cfg0.N, t.val = b.val :=
  (by decide +kernel : ∀ b : Fin 8, ∃ t : Fin grid0.N, t.val = b.val)

theorem point_lt (t : Fin cfg0.N) : t.val < 8 :=
  lt_of_lt_of_eq t.isLt N_0

/-- Row p of point t's blocks is row 2048·t + p of the arrays. -/
def rowOf (t : Fin cfg0.N) (p : Fin 2048) : Fin 16384 :=
  ⟨t.val * 2048 + p.val, by have := point_lt t; have := p.isLt; omega⟩

/-! ### Each input block, read off its array -/

theorem read0 (c : Dev nD) (t : Fin cfg0.N) (p : Fin 2048) (i : Fin 512) :
    iblk m c 0 t (ix2 p i) = V m c main_v17 (ix2 (rowOf t p) i) := by
  obtain ⟨e0, e1, -⟩ := idx_facts t
  unfold iblk
  rw [View.read_apply]
  show V m c main_v17 _ = V m c main_v17 _
  refine congrArg (V m c main_v17) (funext fun a => Fin.ext ?_)
  match a with
  | ⟨0, _⟩ => show win0_0.index t (0 : Fin 2) * 2048 + 1 * p.val = t.val * 2048 + p.val; omega
  | ⟨1, _⟩ => show win0_0.index t (1 : Fin 2) * 512 + 1 * i.val = i.val; omega

theorem read1 (c : Dev nD) (t : Fin cfg0.N) (p : Fin 2048) (i : Fin 16) :
    iblk m c 1 t (ix2 p i) = V m c main_v18 (ix2 (rowOf t p) i) := by
  obtain ⟨-, -, e0, e1, -⟩ := idx_facts t
  unfold iblk
  rw [View.read_apply]
  show V m c main_v18 _ = V m c main_v18 _
  refine congrArg (V m c main_v18) (funext fun a => Fin.ext ?_)
  match a with
  | ⟨0, _⟩ => show win0_1.index t (0 : Fin 2) * 2048 + 1 * p.val = t.val * 2048 + p.val; omega
  | ⟨1, _⟩ => show win0_1.index t (1 : Fin 2) * 16 + 1 * i.val = i.val; omega

theorem read2 (c : Dev nD) (t : Fin cfg0.N) (a : Fin 512) (b : Fin 1024) :
    iblk m c 2 t (ix2 a b) = V m c main_v4 (ix2 a b) := by
  obtain ⟨-, -, -, -, e0, e1, -⟩ := idx_facts t
  unfold iblk
  rw [View.read_apply]
  show V m c main_v4 _ = V m c main_v4 _
  refine congrArg (V m c main_v4) (funext fun d => Fin.ext ?_)
  match d with
  | ⟨0, _⟩ => show win0_2.index t (0 : Fin 2) * 512 + 1 * a.val = a.val; omega
  | ⟨1, _⟩ => show win0_2.index t (1 : Fin 2) * 1024 + 1 * b.val = b.val; omega

theorem read3 (c : Dev nD) (t : Fin cfg0.N) (a : Fin 16) (b : Fin 1024) :
    iblk m c 3 t (ix2 a b) = V m c main_v7 (ix2 a b) := by
  obtain ⟨-, -, -, -, -, -, e0, e1, -⟩ := idx_facts t
  unfold iblk
  rw [View.read_apply]
  show V m c main_v7 _ = V m c main_v7 _
  refine congrArg (V m c main_v7) (funext fun d => Fin.ext ?_)
  match d with
  | ⟨0, _⟩ => show win0_3.index t (0 : Fin 2) * 16 + 1 * a.val = a.val; omega
  | ⟨1, _⟩ => show win0_3.index t (1 : Fin 2) * 1024 + 1 * b.val = b.val; omega

theorem read4 (c : Dev nD) (t : Fin cfg0.N) (a : Fin 1) (b : Fin 1024) :
    iblk m c 4 t (ix2 a b) = V m c main_v13 (ix2 a b) := by
  obtain ⟨-, -, -, -, -, -, -, -, e0, e1, -⟩ := idx_facts t
  unfold iblk
  rw [View.read_apply]
  show V m c main_v13 _ = V m c main_v13 _
  refine congrArg (V m c main_v13) (funext fun d => Fin.ext ?_)
  match d with
  | ⟨0, _⟩ => show win0_4.index t (0 : Fin 2) * 1 + 1 * a.val = a.val; omega
  | ⟨1, _⟩ => show win0_4.index t (1 : Fin 2) * 1024 + 1 * b.val = b.val; omega

theorem read5 (c : Dev nD) (t : Fin cfg0.N) (a : Fin 1024) (b : Fin 1024) :
    iblk m c 5 t (ix2 a b) = V m c main_v9 (ix2 a b) := by
  obtain ⟨-, -, -, -, -, -, -, -, -, -, e0, e1, -⟩ := idx_facts t
  unfold iblk
  rw [View.read_apply]
  show V m c main_v9 _ = V m c main_v9 _
  refine congrArg (V m c main_v9) (funext fun d => Fin.ext ?_)
  match d with
  | ⟨0, _⟩ => show win0_5.index t (0 : Fin 2) * 1024 + 1 * a.val = a.val; omega
  | ⟨1, _⟩ => show win0_5.index t (1 : Fin 2) * 1024 + 1 * b.val = b.val; omega

theorem read6 (c : Dev nD) (t : Fin cfg0.N) (a : Fin 1) (b : Fin 1024) :
    iblk m c 6 t (ix2 a b) = V m c main_v15 (ix2 a b) := by
  obtain ⟨-, -, -, -, -, -, -, -, -, -, -, -, e0, e1, -⟩ := idx_facts t
  unfold iblk
  rw [View.read_apply]
  show V m c main_v15 _ = V m c main_v15 _
  refine congrArg (V m c main_v15) (funext fun d => Fin.ext ?_)
  match d with
  | ⟨0, _⟩ => show win0_6.index t (0 : Fin 2) * 1 + 1 * a.val = a.val; omega
  | ⟨1, _⟩ => show win0_6.index t (1 : Fin 2) * 1024 + 1 * b.val = b.val; omega

theorem read7 (c : Dev nD) (t : Fin cfg0.N) (a : Fin 1024) (b : Fin 512) :
    iblk m c 7 t (ix2 a b) = V m c main_v11 (ix2 a b) := by
  obtain ⟨-, -, -, -, -, -, -, -, -, -, -, -, -, -, e0, e1, -⟩ := idx_facts t
  unfold iblk
  rw [View.read_apply]
  show V m c main_v11 _ = V m c main_v11 _
  refine congrArg (V m c main_v11) (funext fun d => Fin.ext ?_)
  match d with
  | ⟨0, _⟩ => show win0_7.index t (0 : Fin 2) * 1024 + 1 * a.val = a.val; omega
  | ⟨1, _⟩ => show win0_7.index t (1 : Fin 2) * 512 + 1 * b.val = b.val; omega

theorem read8 (c : Dev nD) (t : Fin cfg0.N) (a : Fin 1) (b : Fin 512) :
    iblk m c 8 t (ix2 a b) = V m c main_v16 (ix2 a b) := by
  obtain ⟨-, -, -, -, -, -, -, -, -, -, -, -, -, -, -, -, e0, e1, -⟩ := idx_facts t
  unfold iblk
  rw [View.read_apply]
  show V m c main_v16 _ = V m c main_v16 _
  refine congrArg (V m c main_v16) (funext fun d => Fin.ext ?_)
  match d with
  | ⟨0, _⟩ => show win0_8.index t (0 : Fin 2) * 1 + 1 * a.val = a.val; omega
  | ⟨1, _⟩ => show win0_8.index t (1 : Fin 2) * 512 + 1 * b.val = b.val; omega

/-! ### The result array -/

/-- The result of the region: the perceptron on every row, from the nine arrays as the region finds them. -/
def result (c : Dev nD) : Buf (Elt Ideal) ((c : Thread nD τ).loc main_v19) :=
  whole (V m c main_v17) (V m c main_v18) (V m c main_v4) (V m c main_v7) (V m c main_v13) (V m c main_v9) (V m c main_v15) (V m c main_v11) (V m c main_v16)

/-- Entry (p, q) of the output block at point t is entry (2048·t + p, q) of the array. -/
theorem emb9 (t : Fin cfg0.N) (p : Fin 2048) (q : Fin 512) :
    ((cfg0.win 9).blk t).view.emb (ix2 p q) = ix2 (rowOf t p) q := by
  obtain ⟨-, -, -, -, -, -, -, -, -, -, -, -, -, -, -, -, -, -, e0, e1⟩ := idx_facts t
  funext a
  apply Fin.ext
  match a with
  | ⟨0, _⟩ => show win0_9.index t (0 : Fin 2) * 2048 + 1 * p.val = t.val * 2048 + p.val; omega
  | ⟨1, _⟩ => show win0_9.index t (1 : Fin 2) * 512 + 1 * q.val = q.val; omega

/-- What point t writes back is block t of the result. -/
theorem flushed_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after0_9]
  unfold out0_9
  rw [View.canon_unit_zero hz]
  simp only [View.ld_unit_zero (S := S2048x512) hz, View.ld_unit_zero (S := S2048x16) hz, View.ld_unit_zero (S := S512x1024) hz,
    View.ld_unit_zero (S := S16x1024) hz, View.ld_unit_zero (S := S1x1024) hz, View.ld_unit_zero (S := S1024x1024) hz,
    View.ld_unit_zero (S := S1024x512) hz, View.ld_unit_zero (S := S1x512) hz]
  funext y
  obtain ⟨p, q, rfl⟩ : ∃ (p : Fin 2048) (q : Fin 512), y = ix2 p q := ⟨y 0, y 1, eq_ix2 y⟩
  refine (Cert.ReferenceIdeal.Tile.payload_apply _ _ _ _ _ _ _ _ _ p q).trans ?_
  rw [View.read_apply, emb9]
  simp only [read0 m c t, read1 m c t, read2 m c t, read3 m c t, read4 m c t, read5 m c t, read6 m c t, read7 m c t, read8 m c t]
  rfl

/-- An index of the array is in point t's block iff each coordinate is in the block's range. -/
theorem mem_blk (t : Fin cfg0.N) (i : S16384x512.Idx) :
    i ∈ ((cfg0.win 9).blk t).view.set ↔ ∀ a : Fin 2, win0_9.index t a * S2048x512.size a ≤ (i a).val ∧ (i a).val < win0_9.index t a * S2048x512.size a + S2048x512.size a := by
  show i ∈ ((View.whole main_v19).slice (win0_9.rect t)).set ↔ _
  rw [View.set_slice_whole, Rect.mem_set_unit]
  exact Iff.rfl

/-- Every row of the array is in some point's block. -/
theorem cover (i : S16384x512.Idx) : ∃ t : Fin cfg0.N, (cfg0.win 9).flush t = true ∧ i ∈ ((cfg0.win 9).blk t).view.set := by
  have hi0 : (i 0).val < 16384 := (i 0).isLt
  have hi1 : (i 1).val < 512 := (i 1).isLt
  obtain ⟨t, ht⟩ := idx_onto ⟨(i 0).val / 2048, by omega⟩
  have ht' : t.val = (i 0).val / 2048 := ht
  obtain ⟨-, -, -, -, -, -, -, -, -, -, -, -, -, -, -, -, -, -, e0, e1⟩ := idx_facts t
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 512 ≤ (i 1).val ∧ (i 1).val < win0_9.index t (1 : Fin 2) * 512 + 512; omega

/-- The result array after the region. -/
theorem final (c : Dev nD) : (dats m 0 c).arrAt 9 cfg0.N = result m c :=
  (dats m 0 c).arrAt_eq_of_cover 9 (result m c) (fun t _ => flushed_eq m c t) cover

end Cert.ReferenceIdeal.Whole

end
-- ==== Proof.ReferenceRun.lean ====
/-
  A run of this program, read: where its result and its arguments end.

  After the tiled region the program reshapes the region's 16384-by-512 result to 512 by 32 by 512, and nothing
  else. So every run ends with the result buffer at that reshape of the whole-array perceptron function, and with
  the eight argument buffers as they were.
-/
import proofs.«128546_g2000409334862639_pallasbulk_1019_3_alg».proof.Proof.ReferenceWhole
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.ReferenceIdeal.Whole

open Cert.ReferenceIdeal Cert.ReferenceIdeal.Gen

variable (m : (ℓ : Loc nD τ sig) → Buf (Elt Ideal) ℓ) (ρ : Dev nD → PrngReg)

/-- What the program's result buffer holds after the operations that follow the region: the region's result,
    reshaped. -/
theorem tail_result (c : Dev nD) :
    Pipeline.afterTail₀ cfgs (dats m) 0 (V0 m) [hostOps1] c main_v20
      = shapeCast S512x32x512 (result m c) Gen.shapeCasts_S16384x512_S512x32x512 := by
  unfold Pipeline.afterTail₀
  show StableHlo.after hostOps1 _ (Proc.devRef .tc main_v20) = _
  after_results
  exact congrArg (fun x => shapeCast S512x32x512 x Gen.shapeCasts_S16384x512_S512x32x512)
    ((Pipeline.withArrays_arr spec0 launch0.win.arr_inj c _ _ 9).trans (final m c))

/-- Every run ends with the result at the reshaped perceptron function and the arguments unchanged. -/
theorem run : θ_run defs (onTc (τ := τ) (main (F := Ideal))) ⟨m, fun _ => 0, ρ⟩ fun r => ∀ c : Dev nD,
      r.2.mem ((c.tc : Thread nD τ).loc main_v20) = shapeCast S512x32x512 (result m c) Gen.shapeCasts_S16384x512_S512x32x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v20 (Pipeline.mem_restRefs_of main_v20 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.ReferenceIdeal.Whole

end
-- ==== Proof.LibPadNone.lean ====
/-
  Padding an array by nothing leaves it as it was.

  A pad with no low padding and no interior padding into the array's own shape (so no high padding either) reads
  every result index from the operand at the same index, and never the padding value.
-/
import Idealize.ShloMosaic.PureOps.ShapeOps
import Mathlib.Tactic.FinCases

namespace Cert.Lib.PadNone

open Idealize.ShloMosaic

/-- A pad with zero low and interior padding, into the same shape, is the identity. -/
theorem pad_none {s : Shape} {α : Type} (lo hi interior : Fin s.rank → Nat) (hlo : ∀ a, lo a = 0) (hint : ∀ a, interior a = 0)
    (x : s.Idx → α) {u : Shape} (v : u.Idx → α) (h : s.Pads lo hi interior s) (hu : 0 < u.numel) :
    pad s lo hi interior x v h hu = x := by
  funext j
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hlo a, hint a]
    have hj : (j (a.cast h.1)).val < s.size a := (j a).isLt
    refine ⟨Nat.zero_le _, by omega, by omega⟩
  unfold pad
  rw [dif_pos hin]
  refine congrArg x (funext fun a => Fin.ext ?_)
  show ((j (a.cast h.1)).val - lo a) / (interior a + 1) = (j a).val
  rw [hlo a, hint a]
  show ((j a).val - 0) / (0 + 1) = (j a).val
  omega

/-- The same for an array of two axes with the padding amounts written out. -/
theorem pad_none2 {n0 n1 : Nat} {α : Type} (x : (⟨2, ![n0, n1]⟩ : Shape).Idx → α) {u : Shape} (v : u.Idx → α)
    (h : (⟨2, ![n0, n1]⟩ : Shape).Pads (![0, 0] : Fin 2 → Nat) ![0, 0] ![0, 0] ⟨2, ![n0, n1]⟩) (hu : 0 < u.numel) :
    pad ⟨2, ![n0, n1]⟩ (![0, 0] : Fin 2 → Nat) ![0, 0] ![0, 0] x v h hu = x :=
  pad_none _ _ _ (fun a => by fin_cases a <;> rfl) (fun a => by fin_cases a <;> rfl) x v h hu

/-- The same for an array of one axis. -/
theorem pad_none1 {n : Nat} {α : Type} (x : (⟨1, ![n]⟩ : Shape).Idx → α) {u : Shape} (v : u.Idx → α)
    (h : (⟨1, ![n]⟩ : Shape).Pads (![0] : Fin 1 → Nat) ![0] ![0] ⟨1, ![n]⟩) (hu : 0 < u.numel) :
    pad ⟨1, ![n]⟩ (![0] : Fin 1 → Nat) ![0] ![0] x v h hu = x :=
  pad_none _ _ _ (fun a => by fin_cases a <;> rfl) (fun a => by fin_cases a <;> rfl) x v h hu

end Cert.Lib.PadNone
-- ==== Proof.ReferenceGiven.lean ====
/-
  The nine arrays the tiled region is given, as functions of the program's arguments.

  Before the region the program reshapes the feature argument to 16384 rows, builds the 16-entry indicator of the
  integer argument (an entry is one where the broadcast integer equals the broadcast position 0..15, else zero)
  and reshapes it to 16384 rows, cuts the first weight argument into its first 512 rows and its last 16 rows,
  and reshapes each bias to one row. This program also pads the cut pieces, the other weights and two of the biases by
  nothing, which changes nothing. The changes of number format on the way are the identity on the extended reals.
-/
import proofs.«128546_g2000409334862639_pallasbulk_1019_3_alg».proof.Proof.Gen.ReferenceIdeal.Frame
import Idealize.ShloMosaic.Lib.StableHlo.Run
import Idealize.ShloMosaic.PureOps.Ideal
import proofs.«128546_g2000409334862639_pallasbulk_1019_3_alg».proof.Proof.LibPadNone

noncomputable section

open Idealize.ShloMosaic Idealize.ShloMosaic.TcCoe Idealize.SL.Sem Idealize.ShloMosaic.StableHlo

namespace Cert.ReferenceIdeal.Given

open Cert.ReferenceIdeal Cert.ReferenceIdeal.Gen

variable (m : (ℓ : Loc nD τ sig) → Buf (Elt Ideal) ℓ)

/-- The rows: the feature argument reshaped. -/
theorem rows (c : Dev nD) : V m c main_v17 = shapeCast S16384x512 (m ((c : Thread nD τ).loc main_arg0)) Gen.shapeCasts_S512x32x512_S16384x512 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results
  rfl

/-- The indicators: equality of the broadcast integer argument with the broadcast positions, as zeros and ones, reshaped. -/
theorem indicators (c : Dev nD) : V m c main_v18 = shapeCast S16384x16 (uitofp (F := Ideal) .bf16 (cmpi .eq
        (broadcastInDim S512x32x16 ![0, 1, 2] Gen.bcast_S512x32x1_S512x32x16_0_1_2
          (broadcastInDim S512x32x1 ![0, 1] Gen.bcast_S512x32_S512x32x1_0_1 (m ((c : Thread nD τ).loc main_arg1))))
        (broadcastInDim S512x32x16 ![0, 1, 2] Gen.bcast_S1x1x16_S512x32x16_0_1_2 (iotaInDim S1x1x16 32 2))))
      Gen.shapeCasts_S512x32x16_S16384x16 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results
  rfl

/-- The weights applied to the features: the first 512 rows of the first weight argument. -/
theorem weights1x (c : Dev nD) : V m c main_v4 = extractStridedSlice S512x1024 ![0, 0] (m ((c : Thread nD τ).loc main_arg2)) Gen.slices_S528x1024_S512x1024_0_0 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results
  dsimp only
  simp only [Cert.Lib.PadNone.pad_none2, Cert.Lib.PadNone.pad_none1]
  rfl

/-- The weights applied to the indicators: the last 16 rows of the first weight argument. -/
theorem weights1a (c : Dev nD) : V m c main_v7 = extractStridedSlice S16x1024 ![512, 0] (m ((c : Thread nD τ).loc main_arg2)) Gen.slices_S528x1024_S16x1024_512_0 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results
  dsimp only
  simp only [Cert.Lib.PadNone.pad_none2, Cert.Lib.PadNone.pad_none1]
  rfl

/-- The first bias as one row. -/
theorem bias1 (c : Dev nD) : V m c main_v13 = shapeCast S1x1024 (m ((c : Thread nD τ).loc main_arg3)) Gen.shapeCasts_S1024_S1x1024 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results
  dsimp only
  simp only [Cert.Lib.PadNone.pad_none2, Cert.Lib.PadNone.pad_none1]
  rfl

/-- The second weight matrix. -/
theorem weights2 (c : Dev nD) : V m c main_v9 = m ((c : Thread nD τ).loc main_arg4) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results
  dsimp only
  simp only [Cert.Lib.PadNone.pad_none2, Cert.Lib.PadNone.pad_none1]
  rfl

/-- The second bias as one row. -/
theorem bias2 (c : Dev nD) : V m c main_v15 = shapeCast S1x1024 (m ((c : Thread nD τ).loc main_arg5)) Gen.shapeCasts_S1024_S1x1024 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results
  dsimp only
  simp only [Cert.Lib.PadNone.pad_none2, Cert.Lib.PadNone.pad_none1]
  rfl

/-- The third weight matrix. -/
theorem weights3 (c : Dev nD) : V m c main_v11 = m ((c : Thread nD τ).loc main_arg6) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results
  dsimp only
  simp only [Cert.Lib.PadNone.pad_none2, Cert.Lib.PadNone.pad_none1]
  rfl

/-- The third bias as one row. -/
theorem bias3 (c : Dev nD) : V m c main_v16 = shapeCast S1x512 (m ((c : Thread nD τ).loc main_arg7)) Gen.shapeCasts_S512_S1x512 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results
  rfl

end Cert.ReferenceIdeal.Given

end
-- ==== Proof.lean ====
/-
  Both programs compute one function, a perceptron with two hidden layers applied to each of 16384 rows, and they
  differ only in how the rows are cut into tiles and in where a change of number format happens.

  The program under test and the reference each prepare nine arrays from the eight arguments (the rows, the
  indicators of the integer argument, two pieces of the first weight matrix, the other two weight matrices, and
  the three biases as single rows), run a tiled region over them, and reshape the region's result. The program
  under test works on tiles of 1024 rows over 16 grid points and changes the rows' number format inside the tile
  computation; the reference works on tiles of 2048 rows over 8 grid points and changes the format beforehand.
  Over the extended reals a change of format is the identity, a matrix product into zero is a sum of products,
  and entry (r, q) of either region's result is the perceptron's output q on row r, whichever tile row r falls
  into. The reference also pads some of its nine arrays by nothing. So the nine arrays agree, the regions' results
  agree, and so do the reshaped results. No property of the inputs is used beyond the two runs' arguments being
  equal: the two computations are the same expression entry by entry, with the same grouping of every sum.

  The idealized program is the program's own text read over the extended reals (nothing was rewritten), so the
  statement relating the two is the trivial one. The three programs' runs end, without a fault and with the
  arguments unchanged, by the generated modules' theorems about each program's tiled region.
-/
import proofs.«128546_g2000409334862639_pallasbulk_1019_3_alg».proof.Defs
import proofs.«128546_g2000409334862639_pallasbulk_1019_3_alg».proof.Proof.Gen.Kernel
import proofs.«128546_g2000409334862639_pallasbulk_1019_3_alg».proof.Proof.Gen.Kernel.Frame
import proofs.«128546_g2000409334862639_pallasbulk_1019_3_alg».proof.Proof.Gen.KernelIdeal
import proofs.«128546_g2000409334862639_pallasbulk_1019_3_alg».proof.Proof.Gen.KernelIdeal.Frame
import proofs.«128546_g2000409334862639_pallasbulk_1019_3_alg».proof.Proof.Gen.ReferenceIdeal
import proofs.«128546_g2000409334862639_pallasbulk_1019_3_alg».proof.Proof.Gen.ReferenceIdeal.Frame
import proofs.«128546_g2000409334862639_pallasbulk_1019_3_alg».proof.Proof.Gen.Pre_finite_inputs
import proofs.«128546_g2000409334862639_pallasbulk_1019_3_alg».proof.Proof.KernelRun
import proofs.«128546_g2000409334862639_pallasbulk_1019_3_alg».proof.Proof.KernelGiven
import proofs.«128546_g2000409334862639_pallasbulk_1019_3_alg».proof.Proof.ReferenceRun
import proofs.«128546_g2000409334862639_pallasbulk_1019_3_alg».proof.Proof.ReferenceGiven
import Idealize.ShloMosaic.Adequacy
import Idealize.ShloMosaic.Init

noncomputable section

namespace Cert.Proof

open Idealize.ShloMosaic Idealize.SL.Sem

/-- The program's run ends, faultless, the arguments unchanged. -/
theorem frame_kernel : Cert.frame_Kernel := fun m ρ _ => Cert.Kernel.Gen.frame m ρ

/-- So does the run of the program read over the extended reals. -/
theorem frame_kernelIdeal : Cert.frame_KernelIdeal := fun m ρ _ => Cert.KernelIdeal.Gen.frame m ρ

/-- So does the reference's. -/
theorem frame_referenceIdeal : Cert.frame_ReferenceIdeal := fun m ρ _ => Cert.ReferenceIdeal.Gen.frame m ρ

/-- Nothing was rewritten between the program and its reading over the extended reals. -/
theorem preserves : Cert.preserves_Kernel_KernelIdeal := trivial

/-- From equal arguments the two programs end with equal results: the reshaped perceptron function of the nine
    prepared arrays, which are the same nine functions of the arguments on both sides. -/
theorem algebraic : Cert.algebraic_KernelIdeal_ReferenceIdeal := by
  intro m ρ m' ρ' _ hagree
  refine ⟨fun c => shapeCast Cert.KernelIdeal.S512x32x512 (Cert.KernelIdeal.Whole.result m c)
    Cert.KernelIdeal.Gen.shapeCasts_S16384x512_S512x32x512, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨a0, a1, a2, a3, a4, a5, a6, a7⟩ := hagree c
  show shapeCast Cert.ReferenceIdeal.S512x32x512 (Cert.ReferenceIdeal.Whole.result m' c) _
    = shapeCast Cert.KernelIdeal.S512x32x512 (Cert.KernelIdeal.Whole.result m c) _
  unfold Cert.ReferenceIdeal.Whole.result Cert.KernelIdeal.Whole.result
  rw [Cert.ReferenceIdeal.Given.rows, Cert.ReferenceIdeal.Given.indicators, Cert.ReferenceIdeal.Given.weights1x, Cert.ReferenceIdeal.Given.weights1a, Cert.ReferenceIdeal.Given.bias1, Cert.ReferenceIdeal.Given.weights2, Cert.ReferenceIdeal.Given.bias2,
    Cert.ReferenceIdeal.Given.weights3, Cert.ReferenceIdeal.Given.bias3, Cert.KernelIdeal.Given.rows, Cert.KernelIdeal.Given.indicators, Cert.KernelIdeal.Given.weights1x, Cert.KernelIdeal.Given.weights1a, Cert.KernelIdeal.Given.bias1,
    Cert.KernelIdeal.Given.weights2, Cert.KernelIdeal.Given.bias2, Cert.KernelIdeal.Given.weights3, Cert.KernelIdeal.Given.bias3, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
